-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S64x128 : Shape := ⟨2, ![64, 128]⟩
abbrev S64 : Shape := ⟨1, ![64]⟩
abbrev S1x128 : Shape := ⟨2, ![1, 128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64x128 .f32) (main_arg10 : FVec F S1x128 .f32) (main_arg11 : FVec F S1 .f32) (main_v33 : IVec S_ 1) : IVec S_ 1 :=
  let main_v34 : FVec F S64x128 .f32 := Host.absf main_arg9
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S1x128 .f32 := Host.absf main_arg10
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S64x128 .f32) (main_arg7 : FVec F S64x128 .f32) (main_arg8 : FVec F S64 .f32) (main_arg9 : FVec F S64x128 .f32) (main_arg10 : FVec F S1x128 .f32) (main_arg11 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : FVec F S50000x128 .f32) (main_arg2 : IVec S2x600000 32) (main_arg3 : IVec S2x600000 32) (main_arg4 : FVec F S64x128 .f32) (main_arg5 : FVec F S64 .f32) (main_arg6 : FVec F S64x128 .f32) (main_arg7 : FVec F S64x128 .f32) (main_arg8 : FVec F S64 .f32) (main_arg9 : FVec F S64x128 .f32) (main_arg10 : FVec F S1x128 .f32) (main_arg11 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S2x600000 : Shape := ⟨2, ![2, 600000]⟩
abbrev S64x128 : Shape := ⟨2, ![64, 128]⟩
abbrev S64 : Shape := ⟨1, ![64]⟩
abbrev S1x128 : Shape := ⟨2, ![1, 128]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S128x64 : Shape := ⟨2, ![128, 64]⟩
abbrev S128x1 : Shape := ⟨2, ![128, 1]⟩
abbrev S1x64 : Shape := ⟨2, ![1, 64]⟩
abbrev S1x1 : Shape := ⟨2, ![1, 1]⟩
abbrev S50000x1 : Shape := ⟨2, ![50000, 1]⟩
abbrev S2000x128 : Shape := ⟨2, ![2000, 128]⟩
abbrev S2000x1 : Shape := ⟨2, ![2000, 1]⟩
abbrev S2000x64 : Shape := ⟨2, ![2000, 64]⟩

abbrev nBuf : Space → Nat
  | .hbm => 55
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x600000, .i32⟩
  | .hbm, ⟨3, _⟩ => ⟨S2x600000, .i32⟩
  | .hbm, ⟨4, _⟩ => ⟨S64x128, .f32⟩
  | .hbm, ⟨5, _⟩ => ⟨S64, .f32⟩
  | .hbm, ⟨6, _⟩ => ⟨S64x128, .f32⟩
  | .hbm, ⟨7, _⟩ => ⟨S64x128, .f32⟩
  | .hbm, ⟨8, _⟩ => ⟨S64, .f32⟩
  | .hbm, ⟨9, _⟩ => ⟨S64x128, .f32⟩
  | .hbm, ⟨10, _⟩ => ⟨S1x128, .f32⟩
  | .hbm, ⟨11, _⟩ => ⟨S1, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S1x600000, .i32⟩
  | .hbm, ⟨17, _⟩ => ⟨S600000, .i32⟩
  | .hbm, ⟨18, _⟩ => ⟨S1x600000, .i32⟩
  | .hbm, ⟨19, _⟩ => ⟨S600000, .i32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S_, .f32⟩
  | .hbm, ⟨30, _⟩ => ⟨S50000x128, .f32⟩
  | .hbm, ⟨31, _⟩ => ⟨S600000x1, .i32⟩
  | .hbm, ⟨32, _⟩ => ⟨S50000x128, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000x128, .f32⟩
  | .hbm, ⟨42, _⟩ => ⟨S_, .f32⟩
  | .hbm, ⟨43, _⟩ => ⟨S50000x128, .f32⟩
  | .hbm, ⟨44, _⟩ => ⟨S600000x1, .i32⟩
  | .hbm, ⟨45, _⟩ => ⟨S50000x128, .f32⟩
  | .hbm, ⟨46, _⟩ => ⟨S128x64, .f32⟩
  | .hbm, ⟨47, _⟩ => ⟨S128x64, .f32⟩
  | .hbm, ⟨48, _⟩ => ⟨S128x64, .f32⟩
  | .hbm, ⟨49, _⟩ => ⟨S128x64, .f32⟩
  | .hbm, ⟨50, _⟩ => ⟨S128x1, .f32⟩
  | .hbm, ⟨51, _⟩ => ⟨S1x64, .f32⟩
  | .hbm, ⟨52, _⟩ => ⟨S1x64, .f32⟩
  | .hbm, ⟨53, _⟩ => ⟨S1x1, .f32⟩
  | .hbm, ⟨54, _⟩ => ⟨S50000x1, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x64, .f32⟩
  | .local _ .vmem, ⟨9, _⟩ => ⟨S128x64, .f32⟩
  | .local _ .vmem, ⟨10, _⟩ => ⟨S1x64, .f32⟩
  | .local _ .vmem, ⟨11, _⟩ => ⟨S128x64, .f32⟩
  | .local _ .vmem, ⟨12, _⟩ => ⟨S128x64, .f32⟩
  | .local _ .vmem, ⟨13, _⟩ => ⟨S1x64, .f32⟩
  | .local _ .vmem, ⟨14, _⟩ => ⟨S128x1, .f32⟩
  | .local _ .vmem, ⟨15, _⟩ => ⟨S1x1, .f32⟩
  | .local _ .vmem, ⟨16, _⟩ => ⟨S2000x1, .f32⟩
  | .local _ .vmem, ⟨17, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_1 : Ref sig .tc := ⟨.hbm, 33, rfl⟩
abbrev main_v18 : Ref sig .tc := ⟨.hbm, 34, rfl⟩
abbrev main_v19 : Ref sig .tc := ⟨.hbm, 35, rfl⟩
abbrev main_c_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2000x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  transposes_S64x128_S128x64_1_0 : S64x128.Transposes [1, 0] S128x64
  transposes_S1x128_S128x1_1_0 : S1x128.Transposes [1, 0] S128x1
  shapeCasts_S64_S1x64 : S64.ShapeCasts S1x64
  shapeCasts_S1_S1x1 : S1.ShapeCasts S1x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  concatenates_S2000x64_S2000x64_S2000x128_d1 : Shape.Concatenates [S2000x64, S2000x64] S2000x128 1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x64_S2000x64_1_0_0_1_n_n_wf : DotDims.WF S2000x128 S128x64 S2000x64 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S128x64.size a
  hwx0_8 : ∀ i : grid0.Coords, EltTy.bits .f32 = 32 ∨ (Rect.block (s := S128x64) S128x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x1.size a ≤ S128x1.size a
  hwx0_10 : ∀ i : grid0.Coords, EltTy.bits .f32 = 32 ∨ (Rect.block (s := S128x1) S128x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x1.size a ≤ S50000x1.size a
  hwx0_12 : ∀ i : grid0.Coords, EltTy.bits .f32 = 32 ∨ (Rect.block (s := S50000x1) S2000x1.size (cc0_transform_12 i) (hinb0_12 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_v17) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v31) S128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v34) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v32) S128x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v35) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v36) S2000x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S64x128 : Shape := ⟨2, ![64, 128]⟩
abbrev S64 : Shape := ⟨1, ![64]⟩
abbrev S1x128 : Shape := ⟨2, ![1, 128]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S128x64 : Shape := ⟨2, ![128, 64]⟩
abbrev S50000x64 : Shape := ⟨2, ![50000, 64]⟩
abbrev S1x64 : Shape := ⟨2, ![1, 64]⟩
abbrev S128x1 : Shape := ⟨2, ![128, 1]⟩
abbrev S50000x1 : Shape := ⟨2, ![50000, 1]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x600000, .i32⟩
  | .hbm, ⟨3, _⟩ => ⟨S2x600000, .i32⟩
  | .hbm, ⟨4, _⟩ => ⟨S64x128, .f32⟩
  | .hbm, ⟨5, _⟩ => ⟨S64, .f32⟩
  | .hbm, ⟨6, _⟩ => ⟨S64x128, .f32⟩
  | .hbm, ⟨7, _⟩ => ⟨S64x128, .f32⟩
  | .hbm, ⟨8, _⟩ => ⟨S64, .f32⟩
  | .hbm, ⟨9, _⟩ => ⟨S64x128, .f32⟩
  | .hbm, ⟨10, _⟩ => ⟨S1x128, .f32⟩
  | .hbm, ⟨11, _⟩ => ⟨S1, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S600000x1, .i32⟩
  | .hbm, ⟨24, _⟩ => ⟨S600000x128, .f32⟩
  | .hbm, ⟨25, _⟩ => ⟨S_, .f32⟩
  | .hbm, ⟨26, _⟩ => ⟨S50000x128, .f32⟩
  | .hbm, ⟨27, _⟩ => ⟨S600000x1, .i32⟩
  | .hbm, ⟨28, _⟩ => ⟨S50000x128, .f32⟩
  | .hbm, ⟨29, _⟩ => ⟨S128x64, .f32⟩
  | .hbm, ⟨30, _⟩ => ⟨S50000x64, .f32⟩
  | .hbm, ⟨31, _⟩ => ⟨S1x64, .f32⟩
  | .hbm, ⟨32, _⟩ => ⟨S50000x64, .f32⟩
  | .hbm, ⟨33, _⟩ => ⟨S50000x64, .f32⟩
  | .hbm, ⟨34, _⟩ => ⟨S128x64, .f32⟩
  | .hbm, ⟨35, _⟩ => ⟨S50000x64, .f32⟩
  | .hbm, ⟨36, _⟩ => ⟨S50000x64, .f32⟩
  | .hbm, ⟨37, _⟩ => ⟨S_, .f32⟩
  | .hbm, ⟨38, _⟩ => ⟨S50000x64, .f32⟩
  | .hbm, ⟨39, _⟩ => ⟨S50000x64, .f32⟩
  | .hbm, ⟨40, _⟩ => ⟨S1x600000, .i32⟩
  | .hbm, ⟨41, _⟩ => ⟨S600000, .i32⟩
  | .hbm, ⟨42, _⟩ => ⟨S1x600000, .i32⟩
  | .hbm, ⟨43, _⟩ => ⟨S600000, .i32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000x128, .f32⟩
  | .hbm, ⟨53, _⟩ => ⟨S_, .f32⟩
  | .hbm, ⟨54, _⟩ => ⟨S50000x128, .f32⟩
  | .hbm, ⟨55, _⟩ => ⟨S600000x1, .i32⟩
  | .hbm, ⟨56, _⟩ => ⟨S50000x128, .f32⟩
  | .hbm, ⟨57, _⟩ => ⟨S128x64, .f32⟩
  | .hbm, ⟨58, _⟩ => ⟨S50000x64, .f32⟩
  | .hbm, ⟨59, _⟩ => ⟨S1x64, .f32⟩
  | .hbm, ⟨60, _⟩ => ⟨S50000x64, .f32⟩
  | .hbm, ⟨61, _⟩ => ⟨S50000x64, .f32⟩
  | .hbm, ⟨62, _⟩ => ⟨S128x64, .f32⟩
  | .hbm, ⟨63, _⟩ => ⟨S50000x64, .f32⟩
  | .hbm, ⟨64, _⟩ => ⟨S50000x64, .f32⟩
  | .hbm, ⟨65, _⟩ => ⟨S_, .f32⟩
  | .hbm, ⟨66, _⟩ => ⟨S50000x64, .f32⟩
  | .hbm, ⟨67, _⟩ => ⟨S50000x64, .f32⟩
  | .hbm, ⟨68, _⟩ => ⟨S50000x128, .f32⟩
  | .hbm, ⟨69, _⟩ => ⟨S128x1, .f32⟩
  | .hbm, ⟨70, _⟩ => ⟨S50000x1, .f32⟩
  | .hbm, ⟨71, _⟩ => ⟨S1x1, .f32⟩
  | .hbm, ⟨72, _⟩ => ⟨S50000x1, .f32⟩
  | .hbm, ⟨73, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call0_cst : Ref sig .tc := ⟨.hbm, 37, rfl⟩
abbrev main_call0_v0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_1 : Ref sig .tc := ⟨.hbm, 44, rfl⟩
abbrev main_v27 : Ref sig .tc := ⟨.hbm, 45, rfl⟩
abbrev main_v28 : Ref sig .tc := ⟨.hbm, 46, rfl⟩
abbrev main_c_2 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_call1_cst : Ref sig .tc := ⟨.hbm, 65, rfl⟩
abbrev main_call1_v0 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  concatenates_S50000x64_S50000x64_S50000x128_d1 : Shape.Concatenates [S50000x64, S50000x64] S50000x128 1
  transposes_S1x128_S128x1_1_0 : S1x128.Transposes [1, 0] S128x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x64_S50000x64_1_0_0_1_n_n_wf : DotDims.WF S50000x128 S128x64 S50000x64 [1] [0] [0] [1] [] []
  dot_S50000x128_S128x1_S50000x1_1_0_0_1_n_n_wf : DotDims.WF S50000x128 S128x1 S50000x1 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.HeadsSpec.lean ====
/-
  The dense half of a two-relation graph convolution, as plain sums over the extended reals.

  For one node the network reads four rows of 128 numbers: for each of the two relations, the sum of the
  neighbours' feature rows (`a`) and the node's own feature row (`x`). Per relation it forms 64 hidden features
      max ((a · Wrel[j] + b[j]) + x · Wroot[j], 0),        j < 64,
  puts the two relations' hidden features side by side (128 of them), contracts them with one row of 128
  weights and adds a last bias. That number is `node`; `nodes` is the column of all 50000 of them, read off the
  arrays the network is given (weights as [64,128], biases as [64], the last weights as [1,128]).

  `head`, `hiddenFeature` and `node` are stated over plain functions of `Fin 64` and `Fin 128`, so a program that keeps
  the weights transposed ([128,64]) or the biases as a row ([1,64]) computes the same `node` of differently read
  accessors. The one algebraic law used anywhere is that a sum of three terms may be regrouped
  (`head_bias_last`): addition of extended reals is commutative and associative, infinite terms included, so
  no finiteness of the inputs is needed.
-/
import Idealize.ShloMosaic.PureOps.Ideal
import Idealize.ShloMosaic.Lib.ValueIdx

noncomputable section

open scoped BigOperators

namespace Cert.GraphHeads

open Idealize.ShloMosaic Idealize.ShloMosaic.ValueIdx

/-- The value both programs clamp the hidden features at: the f32 zero word, kept as the word (it is the same word
    on both sides, so its value is never needed). -/
abbrev floor0 : EReal := Ideal.ofBits .f32 0x00000000#32

/-- One relation's hidden feature `j` before the clamp: neighbours' sum times the relation weights, plus the bias,
    plus the node's own row times the root weights. -/
def head (a x : Fin 128 → EReal) (wrel wroot : Fin 64 → Fin 128 → EReal) (b : Fin 64 → EReal) (j : Fin 64) : EReal :=
  ((∑ k : Fin 128, a k * wrel j k) + b j) + ∑ k : Fin 128, x k * wroot j k

/-- The same three terms with the bias added last: a three-term sum regrouped. -/
theorem head_bias_last (a x : Fin 128 → EReal) (wrel wroot : Fin 64 → Fin 128 → EReal) (b : Fin 64 → EReal) (j : Fin 64) :
    ((∑ k : Fin 128, a k * wrel j k) + ∑ k : Fin 128, x k * wroot j k) + b j = head a x wrel wroot b j := by
  unfold head
  exact add_right_comm _ _ _

/-- Hidden feature `k` of the 128 set side by side: relation 0's clamped features first, relation 1's after them. -/
def hiddenFeature (a0 x0 a1 x1 : Fin 128 → EReal) (wrel0 wroot0 : Fin 64 → Fin 128 → EReal) (b0 : Fin 64 → EReal)
    (wrel1 wroot1 : Fin 64 → Fin 128 → EReal) (b1 : Fin 64 → EReal) (k : Fin 128) : EReal :=
  if h : k.val < 64 then max (head a0 x0 wrel0 wroot0 b0 ⟨k.val, h⟩) floor0
  else max (head a1 x1 wrel1 wroot1 b1 ⟨k.val - 64, by have := k.isLt; omega⟩) floor0

/-- The network's output for one node. -/
def node (a0 x0 a1 x1 : Fin 128 → EReal) (wrel0 wroot0 : Fin 64 → Fin 128 → EReal) (b0 : Fin 64 → EReal)
    (wrel1 wroot1 : Fin 64 → Fin 128 → EReal) (b1 : Fin 64 → EReal) (wfc : Fin 128 → EReal) (bfc : EReal) : EReal :=
  (∑ k : Fin 128, hiddenFeature a0 x0 a1 x1 wrel0 wroot0 b0 wrel1 wroot1 b1 k * wfc k) + bfc

/-- Node `r`'s output read off the arrays: row `r` of the two neighbour sums and of the two feature arrays, the
    weights as [64,128], the biases as [64], the last layer as [1,128] and [1]. -/
def nodeAt (agg0 x0 agg1 x1 : FVec Ideal ⟨2, ![50000, 128]⟩ .f32)
    (Wrel0 : FVec Ideal ⟨2, ![64, 128]⟩ .f32) (b0 : FVec Ideal ⟨1, ![64]⟩ .f32) (Wroot0 : FVec Ideal ⟨2, ![64, 128]⟩ .f32)
    (Wrel1 : FVec Ideal ⟨2, ![64, 128]⟩ .f32) (b1 : FVec Ideal ⟨1, ![64]⟩ .f32) (Wroot1 : FVec Ideal ⟨2, ![64, 128]⟩ .f32)
    (Wfc : FVec Ideal ⟨2, ![1, 128]⟩ .f32) (bfc : FVec Ideal ⟨1, ![1]⟩ .f32) (r : Fin 50000) : EReal :=
  node (fun k => agg0 (ix2 r k)) (fun k => x0 (ix2 r k)) (fun k => agg1 (ix2 r k)) (fun k => x1 (ix2 r k))
    (fun j k => Wrel0 (ix2 j k)) (fun j k => Wroot0 (ix2 j k)) (fun j => b0 (ix1 j))
    (fun j k => Wrel1 (ix2 j k)) (fun j k => Wroot1 (ix2 j k)) (fun j => b1 (ix1 j))
    (fun k => Wfc (ix2 (0 : Fin 1) k)) (bfc (ix1 (0 : Fin 1)))

/-- The whole result, a column of 50000 numbers: entry `(r, 0)` is node `r`'s output. -/
def nodes (agg0 x0 agg1 x1 : FVec Ideal ⟨2, ![50000, 128]⟩ .f32)
    (Wrel0 : FVec Ideal ⟨2, ![64, 128]⟩ .f32) (b0 : FVec Ideal ⟨1, ![64]⟩ .f32) (Wroot0 : FVec Ideal ⟨2, ![64, 128]⟩ .f32)
    (Wrel1 : FVec Ideal ⟨2, ![64, 128]⟩ .f32) (b1 : FVec Ideal ⟨1, ![64]⟩ .f32) (Wroot1 : FVec Ideal ⟨2, ![64, 128]⟩ .f32)
    (Wfc : FVec Ideal ⟨2, ![1, 128]⟩ .f32) (bfc : FVec Ideal ⟨1, ![1]⟩ .f32) : FVec Ideal ⟨2, ![50000, 1]⟩ .f32 :=
  fun i => nodeAt agg0 x0 agg1 x1 Wrel0 b0 Wroot0 Wrel1 b1 Wroot1 Wfc bfc (i 0)

/-- At the index `(r, q)` (the second coordinate has one value) it is node `r`'s output. -/
theorem nodes_apply (agg0 x0 agg1 x1 : FVec Ideal ⟨2, ![50000, 128]⟩ .f32)
    (Wrel0 : FVec Ideal ⟨2, ![64, 128]⟩ .f32) (b0 : FVec Ideal ⟨1, ![64]⟩ .f32) (Wroot0 : FVec Ideal ⟨2, ![64, 128]⟩ .f32)
    (Wrel1 : FVec Ideal ⟨2, ![64, 128]⟩ .f32) (b1 : FVec Ideal ⟨1, ![64]⟩ .f32) (Wroot1 : FVec Ideal ⟨2, ![64, 128]⟩ .f32)
    (Wfc : FVec Ideal ⟨2, ![1, 128]⟩ .f32) (bfc : FVec Ideal ⟨1, ![1]⟩ .f32) (r : Fin 50000) (q : Fin 1) :
    nodes agg0 x0 agg1 x1 Wrel0 b0 Wroot0 Wrel1 b1 Wroot1 Wfc bfc (ix2 r q)
      = nodeAt agg0 x0 agg1 x1 Wrel0 b0 Wroot0 Wrel1 b1 Wroot1 Wfc bfc r := rfl

end Cert.GraphHeads

end
-- ==== Proof.KernelRow.lean ====
/-
  What the kernel body computes for one row of a block, as plain sums.

  The body sees, at a grid point, 2000 rows of each of the four node arrays (the two neighbour sums and the two
  feature arrays), the four weight matrices TRANSPOSED ([128,64]), the two biases as rows ([1,64]), the last
  layer's weights as a column ([128,1]) and its bias as [1,1]. Read at row `p` of the block:
    * each matrix product into a zero accumulator is the sum over the 128 contracted positions of the products
      (the narrowing of the operands to bf16 is the identity on extended reals);
    * relation 0's hidden features come out of the first part of the body already clamped, relation 1's come out
      unclamped and without their bias, which the second part adds before it clamps;
    * the two are set side by side, contracted with the column of last-layer weights, and the last bias is added.
  Each relation adds its bias AFTER the two products; regrouping that three-term sum (`head_bias_last`) makes the
  row the specification's `node` of the block's rows and of the transposed weights read back as [64][128].
-/
import proofs.«136945_j32865089749543_1_alg».proof.Proof.Gen.KernelIdeal.Skeleton
import proofs.«136945_j32865089749543_1_alg».proof.Proof.HeadsSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.RowValue

open Cert.KernelIdeal Cert.KernelIdeal.Gen Idealize.ShloMosaic Idealize.ShloMosaic.ValueIdx Cert.GraphHeads

/-! ## The two matrix products read at an index

With one contracted axis of extent 128, the operand indices at output index `(p, j)` and contraction position `k`
are `(p, k)` and `(k, j)`. -/

theorem lhs64_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs64_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhs64_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhs64_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- A [2000,128] × [128,64] product into the zero accumulator, at `(p, j)`: the sum over the 128 contracted positions. -/
theorem mm64_apply (l : FVec Ideal S2000x128 .bf16) (w : FVec Ideal S128x64 .bf16) (p : Fin 2000) (j : Fin 64) :
    matmul dot_S2000x128_S128x64_S2000x64_1_0_0_1_n_n none l w (constant (F := Ideal) S2000x64 .f32 0x00000000#32) (ix2 p j)
      = ∑ k : Fin 128, l (ix2 p k) * w (ix2 k j) := by
  simp only [matmul]
  rw [Ideal.matmul_constant_zero_apply, ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p j) ((contrEquiv1 dot_S2000x128_S128x64_S2000x64_1_0_0_1_n_n 128 rfl rfl).symm k) = ix2 p k := funext fun a => Fin.ext (by
    match a with
    | ⟨0, _⟩ => exact lhs64_0 _ _
    | ⟨1, _⟩ => exact (lhs64_1 _ _).trans hk)
  have er : dot_S2000x128_S128x64_S2000x64_1_0_0_1_n_n.rhsIdx (ix2 p j) ((contrEquiv1 dot_S2000x128_S128x64_S2000x64_1_0_0_1_n_n 128 rfl rfl).symm k) = ix2 k j := funext fun a => Fin.ext (by
    match a with
    | ⟨0, _⟩ => exact (rhs64_0 _ _).trans hk
    | ⟨1, _⟩ => exact rhs64_1 _ _)
  rw [el, er]

theorem lhs1_0 (i : S2000x1.Idx) (q : dot_S2000x128_S128x1_S2000x1_1_0_0_1_n_n.contr.Idx) :
    (dot_S2000x128_S128x1_S2000x1_1_0_0_1_n_n.lhsIdx i q 0).val = (i 0).val := by
  unfold DotDims.lhsIdx
  rw [dif_neg (show ¬(0 : Fin S2000x128.rank) ∈ dot_S2000x128_S128x1_S2000x1_1_0_0_1_n_n.lhsBatch by decide), dif_pos (show (0 : Fin S2000x128.rank) ∈ dot_S2000x128_S128x1_S2000x1_1_0_0_1_n_n.lhsNonContracting by decide)]
  rfl
theorem lhs1_1 (i : S2000x1.Idx) (q : dot_S2000x128_S128x1_S2000x1_1_0_0_1_n_n.contr.Idx) :
    (dot_S2000x128_S128x1_S2000x1_1_0_0_1_n_n.lhsIdx i q 1).val = (q ⟨0, by decide⟩).val :=
  dot_S2000x128_S128x1_S2000x1_1_0_0_1_n_n.lhsIdx_val_of_single rfl i q
theorem rhs1_0 (i : S2000x1.Idx) (q : dot_S2000x128_S128x1_S2000x1_1_0_0_1_n_n.contr.Idx) :
    (dot_S2000x128_S128x1_S2000x1_1_0_0_1_n_n.rhsIdx i q 0).val = (q ⟨0, by decide⟩).val :=
  dot_S2000x128_S128x1_S2000x1_1_0_0_1_n_n.rhsIdx_val_of_single rfl i q
theorem rhs1_1 (i : S2000x1.Idx) (q : dot_S2000x128_S128x1_S2000x1_1_0_0_1_n_n.contr.Idx) :
    (dot_S2000x128_S128x1_S2000x1_1_0_0_1_n_n.rhsIdx i q 1).val = (i 1).val := by
  unfold DotDims.rhsIdx
  rw [dif_neg (show ¬(1 : Fin S128x1.rank) ∈ dot_S2000x128_S128x1_S2000x1_1_0_0_1_n_n.rhsBatch by decide), dif_pos (show (1 : Fin S128x1.rank) ∈ dot_S2000x128_S128x1_S2000x1_1_0_0_1_n_n.rhsNonContracting by decide)]
  rfl

/-- A [2000,128] × [128,1] product into the zero accumulator, at `(p, q)`: the sum over the 128 contracted positions. -/
theorem mm1_apply (l : FVec Ideal S2000x128 .bf16) (w : FVec Ideal S128x1 .bf16) (p : Fin 2000) (q : Fin 1) :
    matmul dot_S2000x128_S128x1_S2000x1_1_0_0_1_n_n none l w (constant (F := Ideal) S2000x1 .f32 0x00000000#32) (ix2 p q)
      = ∑ k : Fin 128, l (ix2 p k) * w (ix2 k q) := by
  simp only [matmul]
  rw [Ideal.matmul_constant_zero_apply, ← Equiv.sum_comp (contrEquiv1 dot_S2000x128_S128x1_S2000x1_1_0_0_1_n_n 128 rfl rfl).symm]
  refine Finset.sum_congr rfl fun k _ => ?_
  have hk := contrEquiv1_symm_val dot_S2000x128_S128x1_S2000x1_1_0_0_1_n_n 128 rfl rfl k
  have el : dot_S2000x128_S128x1_S2000x1_1_0_0_1_n_n.lhsIdx (ix2 p q) ((contrEquiv1 dot_S2000x128_S128x1_S2000x1_1_0_0_1_n_n 128 rfl rfl).symm k) = ix2 p k := funext fun a => Fin.ext (by
    match a with
    | ⟨0, _⟩ => exact lhs1_0 _ _
    | ⟨1, _⟩ => exact (lhs1_1 _ _).trans hk)
  have er : dot_S2000x128_S128x1_S2000x1_1_0_0_1_n_n.rhsIdx (ix2 p q) ((contrEquiv1 dot_S2000x128_S128x1_S2000x1_1_0_0_1_n_n 128 rfl rfl).symm k) = ix2 k q := funext fun a => Fin.ext (by
    match a with
    | ⟨0, _⟩ => exact (rhs1_0 _ _).trans hk
    | ⟨1, _⟩ => exact rhs1_1 _ _)
  rw [el, er]

/-! ## Two [2000,64] blocks set side by side -/

/-- Joined along the feature axis, position `k < 64` reads the first block at `k` and position `k ≥ 64` the second
    at `k - 64`. -/
theorem sideBySide_apply (u v : FVec Ideal S2000x64 .f32) (p : Fin 2000) (k : Fin 128) :
    concatenate S2000x128 1 [⟨S2000x64, u⟩, ⟨S2000x64, v⟩] concatenates_S2000x64_S2000x64_S2000x128_d1 (ix2 p k)
      = if h : k.val < 64 then u (ix2 p ⟨k.val, h⟩) else v (ix2 p ⟨k.val - 64, by have := k.isLt; omega⟩) := by
  split
  · rename_i h
    exact concatenate_pair_apply_left (1 : Fin 2) u v concatenates_S2000x64_S2000x64_S2000x128_d1 (ix2 p k) rfl
      (ix2 p ⟨k.val, h⟩) (fun b => match b with | ⟨0, _⟩ => rfl | ⟨1, _⟩ => rfl)
  · rename_i h
    exact concatenate_pair_apply_right (1 : Fin 2) u v concatenates_S2000x64_S2000x64_S2000x128_d1 (ix2 p k) rfl rfl
      (ix2 p ⟨k.val - 64, by have := k.isLt; omega⟩)
      (fun b hb => match b with | ⟨0, _⟩ => rfl | ⟨1, _⟩ => absurd rfl hb)
      (by show (k.val - 64) + 64 = k.val; omega)

/-! ## The body's three values at a row -/

/-- Relation 0's hidden feature `j` at row `p`, as the body computes it: the two products, then the bias, then the clamp. -/
theorem pay2_apply (a x : Vec Ideal S2000x128 .f32) (wrel wroot : Vec Ideal S128x64 .f32) (b : Vec Ideal S1x64 .f32)
    (p : Fin 2000) (j : Fin 64) :
    k0_pay2 (F := Ideal) a x wrel wroot b (ix2 p j)
      = max (((∑ k : Fin 128, a (ix2 p k) * wrel (ix2 k j)) + ∑ k : Fin 128, x (ix2 p k) * wroot (ix2 k j))
          + b (ix2 (0 : Fin 1) j)) floor0 := by
  unfold k0_pay2
  simp only [shapeCast_self]
  rw [maximumf_apply, addf_apply, addf_apply, mm64_apply, mm64_apply, broadcastTo_1b_ab_apply]
  rfl

/-- Relation 1's two products at row `p`, feature `j`, before bias and clamp. -/
theorem pay3_apply (a x : Vec Ideal S2000x128 .f32) (wrel wroot : Vec Ideal S128x64 .f32) (p : Fin 2000) (j : Fin 64) :
    k0_pay3 (F := Ideal) a x wrel wroot (ix2 p j)
      = (∑ k : Fin 128, a (ix2 p k) * wrel (ix2 k j)) + ∑ k : Fin 128, x (ix2 p k) * wroot (ix2 k j) := by
  unfold k0_pay3
  simp only [shapeCast_self]
  rw [addf_apply, mm64_apply, mm64_apply]
  rfl

/-- The stored value at row `p`: relation 1's bias and clamp, the two relations side by side, the last product and bias. -/
theorem pay1_apply (h0 s1 : FVec Ideal S2000x64 .f32) (b : Vec Ideal S1x64 .f32) (wfc : Vec Ideal S128x1 .f32)
    (bfc : Vec Ideal S1x1 .f32) (p : Fin 2000) (q : Fin 1) :
    k0_pay1 (F := Ideal) h0 s1 b wfc bfc (ix2 p q)
      = (∑ k : Fin 128, (if h : k.val < 64 then h0 (ix2 p ⟨k.val, h⟩)
            else max (s1 (ix2 p ⟨k.val - 64, by have := k.isLt; omega⟩) + b (ix2 (0 : Fin 1) ⟨k.val - 64, by have := k.isLt; omega⟩)) floor0)
          * wfc (ix2 k q)) + bfc (ix2 (0 : Fin 1) q) := by
  unfold k0_pay1
  simp only [shapeCast_self]
  rw [addf_apply, mm1_apply, broadcastTo_1b_ab_apply]
  refine congrArg (· + bfc (ix2 (0 : Fin 1) q)) (Finset.sum_congr rfl fun k _ => ?_)
  refine congrArg (· * wfc (ix2 k q)) ?_
  refine (sideBySide_apply _ _ p k).trans ?_
  split
  · rfl
  · rw [maximumf_apply, addf_apply, broadcastTo_1b_ab_apply, shapeCast_self]
    rfl

/-! ## The row is the specification's `node` -/

/-- Row `p` of what the body stores is `node` of row `p` of the four node blocks, of the transposed weights read back
    feature-first, and of the biases' one row. -/
theorem body_row (a0 x0 a1 x1 : Vec Ideal S2000x128 .f32) (w4 w5 : Vec Ideal S128x64 .f32) (b6 : Vec Ideal S1x64 .f32)
    (w7 w8 : Vec Ideal S128x64 .f32) (b9 : Vec Ideal S1x64 .f32) (w10 : Vec Ideal S128x1 .f32) (b11 : Vec Ideal S1x1 .f32)
    (p : Fin 2000) (q : Fin 1) :
    k0_pay1 (F := Ideal) (k0_pay2 a0 x0 w4 w5 b6) (k0_pay3 a1 x1 w7 w8) b9 w10 b11 (ix2 p q)
      = node (fun k => a0 (ix2 p k)) (fun k => x0 (ix2 p k)) (fun k => a1 (ix2 p k)) (fun k => x1 (ix2 p k))
          (fun j k => w4 (ix2 k j)) (fun j k => w5 (ix2 k j)) (fun j => b6 (ix2 (0 : Fin 1) j))
          (fun j k => w7 (ix2 k j)) (fun j k => w8 (ix2 k j)) (fun j => b9 (ix2 (0 : Fin 1) j))
          (fun k => w10 (ix2 k (0 : Fin 1))) (b11 (ix2 (0 : Fin 1) (0 : Fin 1))) := by
  obtain rfl : q = 0 := Subsingleton.elim q 0
  rw [pay1_apply]
  unfold node
  refine congrArg (· + b11 (ix2 (0 : Fin 1) (0 : Fin 1))) (Finset.sum_congr rfl fun k _ => ?_)
  refine congrArg (· * w10 (ix2 k (0 : Fin 1))) ?_
  unfold hiddenFeature
  by_cases h : k.val < 64
  · rw [dif_pos h, dif_pos h, pay2_apply]
    exact congrArg (max · floor0) (head_bias_last (fun k => a0 (ix2 p k)) (fun k => x0 (ix2 p k))
      (fun j k => w4 (ix2 k j)) (fun j k => w5 (ix2 k j)) (fun j => b6 (ix2 (0 : Fin 1) j)) ⟨k.val, h⟩)
  · rw [dif_neg h, dif_neg h, pay3_apply]
    exact congrArg (max · floor0) (head_bias_last (fun k => a1 (ix2 p k)) (fun k => x1 (ix2 p k))
      (fun j k => w7 (ix2 k j)) (fun j k => w8 (ix2 k j)) (fun j => b9 (ix2 (0 : Fin 1) j))
      ⟨k.val - 64, by have := k.isLt; omega⟩)

end Cert.KernelIdeal.RowValue

end
-- ==== Proof.KernelInputs.lean ====
/-
  The arrays @main prepares before it launches the kernel.

  Before the region @main computes, from the arguments: each relation's neighbour sums (gather the source rows,
  add them into a zero array at the destination rows), the four weight matrices and the last layer's weight row
  transposed, and the three biases reshaped to one row. Each lemma reads one of these arrays, as the region finds
  it, as that operation of the argument arrays. The neighbour sums are carried as one unopened term: the other
  program computes the very same chain, so nothing about gathers or scattered sums is ever needed.
-/
import proofs.«136945_j32865089749543_1_alg».proof.Proof.Gen.KernelIdeal.Frame
import Idealize.ShloMosaic.Lib.StableHlo.Run
import Idealize.ShloMosaic.PureOps.Ideal

noncomputable section

open scoped BigOperators

namespace Cert.KernelIdeal.ArrayValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-! ## The arrays @main prepares before the region -/

/-- One relation's neighbour sums as @main computes them before the region: the edge array's first row holds the
    source nodes and its second row the destination nodes; a negative source index counts from the end; each edge's
    source row is gathered and added into the zero array at its destination row. Both programs compute exactly this
    chain, so it is carried as one unopened term. -/
def neighbourSum (x : (⟨S50000x128, .f32⟩ : BufTy).Contents (Elt Ideal)) (e : (⟨S2x600000, .i32⟩ : BufTy).Contents (Elt Ideal)) :
    (⟨S50000x128, .f32⟩ : BufTy).Contents (Elt Ideal) :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0
      (shapeCast _ (extractStridedSlice S1x600000 ![1, 0] e slices_S2x600000_S1x600000_1_0) shapeCasts_S1x600000_S600000))
    (Host.gather gather_S50000x128_S600000x1_S600000x128_1_0_n_n_0_1_1128 x
      (broadcastInDim S600000x1 ![0] bcast_S600000_S600000x1_0
        (select
          (cmpi .slt (shapeCast _ (extractStridedSlice S1x600000 ![0, 0] e slices_S2x600000_S1x600000_0_0) shapeCasts_S1x600000_S600000)
            (broadcastInDim S600000 ![] bcast_S_S600000 (constantI S_ 32 0#32)))
          (addi (shapeCast _ (extractStridedSlice S1x600000 ![0, 0] e slices_S2x600000_S1x600000_0_0) shapeCasts_S1x600000_S600000)
            (broadcastInDim S600000 ![] bcast_S_S600000 (constantI S_ 32 50000#32)))
          (shapeCast _ (extractStridedSlice S1x600000 ![0, 0] e slices_S2x600000_S1x600000_0_0) shapeCasts_S1x600000_S600000))))

/-- Window 0's array: relation 0's neighbour sums of the first feature array along the first edge array. -/
theorem V_main_v17 (c : Dev nD) : (V m c main_v17 : S50000x128.Idx → EReal)
    = neighbourSum (m ((c : Thread nD τ).loc main_arg0)) (m ((c : Thread nD τ).loc main_arg2)) := by
  dsimp only [V, hostOps0]
  after_results_simp <;> rfl

/-- Window 2's array: relation 1's neighbour sums of the second feature array along the second edge array. -/
theorem V_main_v27 (c : Dev nD) : (V m c main_v27 : S50000x128.Idx → EReal)
    = neighbourSum (m ((c : Thread nD τ).loc main_arg1)) (m ((c : Thread nD τ).loc main_arg3)) := by
  dsimp only [V, hostOps0]
  after_results_simp <;> rfl

/-- Window 4's array: relation 0's relation weights, transposed. -/
theorem V_main_v28 (c : Dev nD) : (V m c main_v28 : S128x64.Idx → EReal)
    = transpose S128x64 [1, 0] (m ((c : Thread nD τ).loc main_arg4)) transposes_S64x128_S128x64_1_0 := by
  dsimp only [V, hostOps0]
  after_results_simp <;> rfl

/-- Window 5's array: relation 0's root weights, transposed. -/
theorem V_main_v29 (c : Dev nD) : (V m c main_v29 : S128x64.Idx → EReal)
    = transpose S128x64 [1, 0] (m ((c : Thread nD τ).loc main_arg6)) transposes_S64x128_S128x64_1_0 := by
  dsimp only [V, hostOps0]
  after_results_simp <;> rfl

/-- Window 7's array: relation 1's relation weights, transposed. -/
theorem V_main_v30 (c : Dev nD) : (V m c main_v30 : S128x64.Idx → EReal)
    = transpose S128x64 [1, 0] (m ((c : Thread nD τ).loc main_arg7)) transposes_S64x128_S128x64_1_0 := by
  dsimp only [V, hostOps0]
  after_results_simp <;> rfl

/-- Window 8's array: relation 1's root weights, transposed. -/
theorem V_main_v31 (c : Dev nD) : (V m c main_v31 : S128x64.Idx → EReal)
    = transpose S128x64 [1, 0] (m ((c : Thread nD τ).loc main_arg9)) transposes_S64x128_S128x64_1_0 := by
  dsimp only [V, hostOps0]
  after_results_simp <;> rfl

/-- Window 6's array: relation 0's bias as one row. -/
theorem V_main_v33 (c : Dev nD) : (V m c main_v33 : S1x64.Idx → EReal)
    = shapeCast S1x64 (m ((c : Thread nD τ).loc main_arg5)) shapeCasts_S64_S1x64 := by
  dsimp only [V, hostOps0]
  after_results_simp <;> rfl

/-- Window 9's array: relation 1's bias as one row. -/
theorem V_main_v34 (c : Dev nD) : (V m c main_v34 : S1x64.Idx → EReal)
    = shapeCast S1x64 (m ((c : Thread nD τ).loc main_arg8)) shapeCasts_S64_S1x64 := by
  dsimp only [V, hostOps0]
  after_results_simp <;> rfl

/-- Window 10's array: the last layer's weights, transposed to a column. -/
theorem V_main_v32 (c : Dev nD) : (V m c main_v32 : S128x1.Idx → EReal)
    = transpose S128x1 [1, 0] (m ((c : Thread nD τ).loc main_arg10)) transposes_S1x128_S128x1_1_0 := by
  dsimp only [V, hostOps0]
  after_results_simp <;> rfl

/-- Window 11's array: the last layer's bias as [1,1]. -/
theorem V_main_v35 (c : Dev nD) : (V m c main_v35 : S1x1.Idx → EReal)
    = shapeCast S1x1 (m ((c : Thread nD τ).loc main_arg11)) shapeCasts_S1_S1x1 := by
  dsimp only [V, hostOps0]
  after_results_simp <;> rfl

end Cert.KernelIdeal.ArrayValue

end
-- ==== Proof.KernelBlocks.lean ====
/-
  Which part of its array each window of the kernel holds at a grid point.

  The grid has 25 points. The four node arrays ([50000,128]) are cut into blocks of 2000 rows and point `t` holds
  block `t`: row `p` of the block is row `2000 t + p` of the array. Every weight and bias array is one block, the same
  at every point. (The result's window moves like the node arrays'.)
-/
import proofs.«136945_j32865089749543_1_alg».proof.Proof.Gen.KernelIdeal.Frame
import Idealize.ShloMosaic.Lib.Pipeline.Value
import Idealize.ShloMosaic.Lib.ValueIdx
import Idealize.ShloMosaic.PureOps.Ideal

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## Which block each window holds at a point

Reading a block through its window involves a change of element type along an equation that holds by computation;
it is discharged here for an ARBITRARY array, and only then applied to the arrays the region finds. -/

theorem hz : (![0, 0] : Fin 2 → Nat) = fun _ => 0 := funext fun a => by fin_cases a <;> rfl

/-- The printed index maps over the 25 points: the node arrays and the result move to block `t` of their rows, every
    other window stays on its one block. -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_12.index t (0 : Fin 2) = t.val
    ∧ win0_12.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0 :=
  (by decide +kernel : ∀ t : Fin grid0.N, _)

/-- Row `p` of window 0's block at point `t` is row `2000 t + p` of its array, whatever the array holds. -/
theorem rows0_of (A : S50000x128.Idx → EReal) (t : Fin cfg0.N) (p : Fin 2000) (k : Fin 128) (R : Fin 50000)
    (hR : R.val = t.val * 2000 + p.val) :
    ((cfg0.win 0).blk t).view.read (Elt Ideal) A (ix2 p k) = A (ix2 R k) := by
  show A (((cfg0.win 0).blk t).view.emb (ix2 p k)) = A (ix2 R k)
  obtain ⟨e0a, e0b, e1a, e1b, e2a, e2b, e3a, e3b, e12a, e12b, e4a, e4b, e5a, e5b, e6a, e6b, e7a, e7b, e8a, e8b, e9a, e9b, e10a, e10b, e11a, e11b⟩ := idx_facts t
  refine congrArg A (funext fun a => Fin.ext ?_)
  match a with
  | ⟨0, _⟩ => show win0_0.index t (0 : Fin 2) * 2000 + 1 * p.val = R.val; omega
  | ⟨1, _⟩ => show win0_0.index t (1 : Fin 2) * 128 + 1 * k.val = k.val; omega

/-- The same of the array the region finds behind window 0. -/
theorem rows0 (c : Dev nD) (t : Fin cfg0.N) (p : Fin 2000) (k : Fin 128) (R : Fin 50000) (hR : R.val = t.val * 2000 + p.val) :
    iblk m c 0 t (ix2 p k) = V m c main_v17 (ix2 R k) := by
  unfold iblk
  exact (rows0_of (V m c (Pipeline.arrRef spec0 0)) t p k R hR).trans
    (congrFun (show V m c (Pipeline.arrRef spec0 0) = V m c main_v17 from rfl) _)

/-- Row `p` of window 1's block at point `t` is row `2000 t + p` of its array, whatever the array holds. -/
theorem rows1_of (A : S50000x128.Idx → EReal) (t : Fin cfg0.N) (p : Fin 2000) (k : Fin 128) (R : Fin 50000)
    (hR : R.val = t.val * 2000 + p.val) :
    ((cfg0.win 1).blk t).view.read (Elt Ideal) A (ix2 p k) = A (ix2 R k) := by
  show A (((cfg0.win 1).blk t).view.emb (ix2 p k)) = A (ix2 R k)
  obtain ⟨e0a, e0b, e1a, e1b, e2a, e2b, e3a, e3b, e12a, e12b, e4a, e4b, e5a, e5b, e6a, e6b, e7a, e7b, e8a, e8b, e9a, e9b, e10a, e10b, e11a, e11b⟩ := idx_facts t
  refine congrArg A (funext fun a => Fin.ext ?_)
  match a with
  | ⟨0, _⟩ => show win0_1.index t (0 : Fin 2) * 2000 + 1 * p.val = R.val; omega
  | ⟨1, _⟩ => show win0_1.index t (1 : Fin 2) * 128 + 1 * k.val = k.val; omega

/-- The same of the array the region finds behind window 1. -/
theorem rows1 (c : Dev nD) (t : Fin cfg0.N) (p : Fin 2000) (k : Fin 128) (R : Fin 50000) (hR : R.val = t.val * 2000 + p.val) :
    iblk m c 1 t (ix2 p k) = V m c main_arg0 (ix2 R k) := by
  unfold iblk
  exact (rows1_of (V m c (Pipeline.arrRef spec0 1)) t p k R hR).trans
    (congrFun (show V m c (Pipeline.arrRef spec0 1) = V m c main_arg0 from rfl) _)

/-- Row `p` of window 2's block at point `t` is row `2000 t + p` of its array, whatever the array holds. -/
theorem rows2_of (A : S50000x128.Idx → EReal) (t : Fin cfg0.N) (p : Fin 2000) (k : Fin 128) (R : Fin 50000)
    (hR : R.val = t.val * 2000 + p.val) :
    ((cfg0.win 2).blk t).view.read (Elt Ideal) A (ix2 p k) = A (ix2 R k) := by
  show A (((cfg0.win 2).blk t).view.emb (ix2 p k)) = A (ix2 R k)
  obtain ⟨e0a, e0b, e1a, e1b, e2a, e2b, e3a, e3b, e12a, e12b, e4a, e4b, e5a, e5b, e6a, e6b, e7a, e7b, e8a, e8b, e9a, e9b, e10a, e10b, e11a, e11b⟩ := idx_facts t
  refine congrArg A (funext fun a => Fin.ext ?_)
  match a with
  | ⟨0, _⟩ => show win0_2.index t (0 : Fin 2) * 2000 + 1 * p.val = R.val; omega
  | ⟨1, _⟩ => show win0_2.index t (1 : Fin 2) * 128 + 1 * k.val = k.val; omega

/-- The same of the array the region finds behind window 2. -/
theorem rows2 (c : Dev nD) (t : Fin cfg0.N) (p : Fin 2000) (k : Fin 128) (R : Fin 50000) (hR : R.val = t.val * 2000 + p.val) :
    iblk m c 2 t (ix2 p k) = V m c main_v27 (ix2 R k) := by
  unfold iblk
  exact (rows2_of (V m c (Pipeline.arrRef spec0 2)) t p k R hR).trans
    (congrFun (show V m c (Pipeline.arrRef spec0 2) = V m c main_v27 from rfl) _)

/-- Row `p` of window 3's block at point `t` is row `2000 t + p` of its array, whatever the array holds. -/
theorem rows3_of (A : S50000x128.Idx → EReal) (t : Fin cfg0.N) (p : Fin 2000) (k : Fin 128) (R : Fin 50000)
    (hR : R.val = t.val * 2000 + p.val) :
    ((cfg0.win 3).blk t).view.read (Elt Ideal) A (ix2 p k) = A (ix2 R k) := by
  show A (((cfg0.win 3).blk t).view.emb (ix2 p k)) = A (ix2 R k)
  obtain ⟨e0a, e0b, e1a, e1b, e2a, e2b, e3a, e3b, e12a, e12b, e4a, e4b, e5a, e5b, e6a, e6b, e7a, e7b, e8a, e8b, e9a, e9b, e10a, e10b, e11a, e11b⟩ := idx_facts t
  refine congrArg A (funext fun a => Fin.ext ?_)
  match a with
  | ⟨0, _⟩ => show win0_3.index t (0 : Fin 2) * 2000 + 1 * p.val = R.val; omega
  | ⟨1, _⟩ => show win0_3.index t (1 : Fin 2) * 128 + 1 * k.val = k.val; omega

/-- The same of the array the region finds behind window 3. -/
theorem rows3 (c : Dev nD) (t : Fin cfg0.N) (p : Fin 2000) (k : Fin 128) (R : Fin 50000) (hR : R.val = t.val * 2000 + p.val) :
    iblk m c 3 t (ix2 p k) = V m c main_arg1 (ix2 R k) := by
  unfold iblk
  exact (rows3_of (V m c (Pipeline.arrRef spec0 3)) t p k R hR).trans
    (congrFun (show V m c (Pipeline.arrRef spec0 3) = V m c main_arg1 from rfl) _)

/-- Window 4's one block is its whole array, whatever the array holds. -/
theorem whole4_of (A : S128x64.Idx → EReal) (t : Fin cfg0.N) (k : Fin 128) (j : Fin 64) :
    ((cfg0.win 4).blk t).view.read (Elt Ideal) A (ix2 k j) = A (ix2 k j) := by
  show A (((cfg0.win 4).blk t).view.emb (ix2 k j)) = A (ix2 k j)
  obtain ⟨e0a, e0b, e1a, e1b, e2a, e2b, e3a, e3b, e12a, e12b, e4a, e4b, e5a, e5b, e6a, e6b, e7a, e7b, e8a, e8b, e9a, e9b, e10a, e10b, e11a, e11b⟩ := idx_facts t
  refine congrArg A (funext fun a => Fin.ext ?_)
  match a with
  | ⟨0, _⟩ => show win0_4.index t (0 : Fin 2) * 128 + 1 * k.val = k.val; omega
  | ⟨1, _⟩ => show win0_4.index t (1 : Fin 2) * 64 + 1 * j.val = j.val; omega

/-- The same of the array the region finds behind window 4. -/
theorem whole4 (c : Dev nD) (t : Fin cfg0.N) (k : Fin 128) (j : Fin 64) :
    iblk m c 4 t (ix2 k j) = V m c main_v28 (ix2 k j) := by
  unfold iblk
  exact (whole4_of (V m c (Pipeline.arrRef spec0 4)) t k j).trans
    (congrFun (show V m c (Pipeline.arrRef spec0 4) = V m c main_v28 from rfl) _)

/-- Window 5's one block is its whole array, whatever the array holds. -/
theorem whole5_of (A : S128x64.Idx → EReal) (t : Fin cfg0.N) (k : Fin 128) (j : Fin 64) :
    ((cfg0.win 5).blk t).view.read (Elt Ideal) A (ix2 k j) = A (ix2 k j) := by
  show A (((cfg0.win 5).blk t).view.emb (ix2 k j)) = A (ix2 k j)
  obtain ⟨e0a, e0b, e1a, e1b, e2a, e2b, e3a, e3b, e12a, e12b, e4a, e4b, e5a, e5b, e6a, e6b, e7a, e7b, e8a, e8b, e9a, e9b, e10a, e10b, e11a, e11b⟩ := idx_facts t
  refine congrArg A (funext fun a => Fin.ext ?_)
  match a with
  | ⟨0, _⟩ => show win0_5.index t (0 : Fin 2) * 128 + 1 * k.val = k.val; omega
  | ⟨1, _⟩ => show win0_5.index t (1 : Fin 2) * 64 + 1 * j.val = j.val; omega

/-- The same of the array the region finds behind window 5. -/
theorem whole5 (c : Dev nD) (t : Fin cfg0.N) (k : Fin 128) (j : Fin 64) :
    iblk m c 5 t (ix2 k j) = V m c main_v29 (ix2 k j) := by
  unfold iblk
  exact (whole5_of (V m c (Pipeline.arrRef spec0 5)) t k j).trans
    (congrFun (show V m c (Pipeline.arrRef spec0 5) = V m c main_v29 from rfl) _)

/-- Window 6's one block is its whole array, whatever the array holds. -/
theorem whole6_of (A : S1x64.Idx → EReal) (t : Fin cfg0.N) (u : Fin 1) (j : Fin 64) :
    ((cfg0.win 6).blk t).view.read (Elt Ideal) A (ix2 u j) = A (ix2 u j) := by
  show A (((cfg0.win 6).blk t).view.emb (ix2 u j)) = A (ix2 u j)
  obtain ⟨e0a, e0b, e1a, e1b, e2a, e2b, e3a, e3b, e12a, e12b, e4a, e4b, e5a, e5b, e6a, e6b, e7a, e7b, e8a, e8b, e9a, e9b, e10a, e10b, e11a, e11b⟩ := idx_facts t
  refine congrArg A (funext fun a => Fin.ext ?_)
  match a with
  | ⟨0, _⟩ => show win0_6.index t (0 : Fin 2) * 1 + 1 * u.val = u.val; omega
  | ⟨1, _⟩ => show win0_6.index t (1 : Fin 2) * 64 + 1 * j.val = j.val; omega

/-- The same of the array the region finds behind window 6. -/
theorem whole6 (c : Dev nD) (t : Fin cfg0.N) (u : Fin 1) (j : Fin 64) :
    iblk m c 6 t (ix2 u j) = V m c main_v33 (ix2 u j) := by
  unfold iblk
  exact (whole6_of (V m c (Pipeline.arrRef spec0 6)) t u j).trans
    (congrFun (show V m c (Pipeline.arrRef spec0 6) = V m c main_v33 from rfl) _)

/-- Window 7's one block is its whole array, whatever the array holds. -/
theorem whole7_of (A : S128x64.Idx → EReal) (t : Fin cfg0.N) (k : Fin 128) (j : Fin 64) :
    ((cfg0.win 7).blk t).view.read (Elt Ideal) A (ix2 k j) = A (ix2 k j) := by
  show A (((cfg0.win 7).blk t).view.emb (ix2 k j)) = A (ix2 k j)
  obtain ⟨e0a, e0b, e1a, e1b, e2a, e2b, e3a, e3b, e12a, e12b, e4a, e4b, e5a, e5b, e6a, e6b, e7a, e7b, e8a, e8b, e9a, e9b, e10a, e10b, e11a, e11b⟩ := idx_facts t
  refine congrArg A (funext fun a => Fin.ext ?_)
  match a with
  | ⟨0, _⟩ => show win0_7.index t (0 : Fin 2) * 128 + 1 * k.val = k.val; omega
  | ⟨1, _⟩ => show win0_7.index t (1 : Fin 2) * 64 + 1 * j.val = j.val; omega

/-- The same of the array the region finds behind window 7. -/
theorem whole7 (c : Dev nD) (t : Fin cfg0.N) (k : Fin 128) (j : Fin 64) :
    iblk m c 7 t (ix2 k j) = V m c main_v30 (ix2 k j) := by
  unfold iblk
  exact (whole7_of (V m c (Pipeline.arrRef spec0 7)) t k j).trans
    (congrFun (show V m c (Pipeline.arrRef spec0 7) = V m c main_v30 from rfl) _)

/-- Window 8's one block is its whole array, whatever the array holds. -/
theorem whole8_of (A : S128x64.Idx → EReal) (t : Fin cfg0.N) (k : Fin 128) (j : Fin 64) :
    ((cfg0.win 8).blk t).view.read (Elt Ideal) A (ix2 k j) = A (ix2 k j) := by
  show A (((cfg0.win 8).blk t).view.emb (ix2 k j)) = A (ix2 k j)
  obtain ⟨e0a, e0b, e1a, e1b, e2a, e2b, e3a, e3b, e12a, e12b, e4a, e4b, e5a, e5b, e6a, e6b, e7a, e7b, e8a, e8b, e9a, e9b, e10a, e10b, e11a, e11b⟩ := idx_facts t
  refine congrArg A (funext fun a => Fin.ext ?_)
  match a with
  | ⟨0, _⟩ => show win0_8.index t (0 : Fin 2) * 128 + 1 * k.val = k.val; omega
  | ⟨1, _⟩ => show win0_8.index t (1 : Fin 2) * 64 + 1 * j.val = j.val; omega

/-- The same of the array the region finds behind window 8. -/
theorem whole8 (c : Dev nD) (t : Fin cfg0.N) (k : Fin 128) (j : Fin 64) :
    iblk m c 8 t (ix2 k j) = V m c main_v31 (ix2 k j) := by
  unfold iblk
  exact (whole8_of (V m c (Pipeline.arrRef spec0 8)) t k j).trans
    (congrFun (show V m c (Pipeline.arrRef spec0 8) = V m c main_v31 from rfl) _)

/-- Window 9's one block is its whole array, whatever the array holds. -/
theorem whole9_of (A : S1x64.Idx → EReal) (t : Fin cfg0.N) (u : Fin 1) (j : Fin 64) :
    ((cfg0.win 9).blk t).view.read (Elt Ideal) A (ix2 u j) = A (ix2 u j) := by
  show A (((cfg0.win 9).blk t).view.emb (ix2 u j)) = A (ix2 u j)
  obtain ⟨e0a, e0b, e1a, e1b, e2a, e2b, e3a, e3b, e12a, e12b, e4a, e4b, e5a, e5b, e6a, e6b, e7a, e7b, e8a, e8b, e9a, e9b, e10a, e10b, e11a, e11b⟩ := idx_facts t
  refine congrArg A (funext fun a => Fin.ext ?_)
  match a with
  | ⟨0, _⟩ => show win0_9.index t (0 : Fin 2) * 1 + 1 * u.val = u.val; omega
  | ⟨1, _⟩ => show win0_9.index t (1 : Fin 2) * 64 + 1 * j.val = j.val; omega

/-- The same of the array the region finds behind window 9. -/
theorem whole9 (c : Dev nD) (t : Fin cfg0.N) (u : Fin 1) (j : Fin 64) :
    iblk m c 9 t (ix2 u j) = V m c main_v34 (ix2 u j) := by
  unfold iblk
  exact (whole9_of (V m c (Pipeline.arrRef spec0 9)) t u j).trans
    (congrFun (show V m c (Pipeline.arrRef spec0 9) = V m c main_v34 from rfl) _)

/-- Window 10's one block is its whole array, whatever the array holds. -/
theorem whole10_of (A : S128x1.Idx → EReal) (t : Fin cfg0.N) (k : Fin 128) (u : Fin 1) :
    ((cfg0.win 10).blk t).view.read (Elt Ideal) A (ix2 k u) = A (ix2 k u) := by
  show A (((cfg0.win 10).blk t).view.emb (ix2 k u)) = A (ix2 k u)
  obtain ⟨e0a, e0b, e1a, e1b, e2a, e2b, e3a, e3b, e12a, e12b, e4a, e4b, e5a, e5b, e6a, e6b, e7a, e7b, e8a, e8b, e9a, e9b, e10a, e10b, e11a, e11b⟩ := idx_facts t
  refine congrArg A (funext fun a => Fin.ext ?_)
  match a with
  | ⟨0, _⟩ => show win0_10.index t (0 : Fin 2) * 128 + 1 * k.val = k.val; omega
  | ⟨1, _⟩ => show win0_10.index t (1 : Fin 2) * 1 + 1 * u.val = u.val; omega

/-- The same of the array the region finds behind window 10. -/
theorem whole10 (c : Dev nD) (t : Fin cfg0.N) (k : Fin 128) (u : Fin 1) :
    iblk m c 10 t (ix2 k u) = V m c main_v32 (ix2 k u) := by
  unfold iblk
  exact (whole10_of (V m c (Pipeline.arrRef spec0 10)) t k u).trans
    (congrFun (show V m c (Pipeline.arrRef spec0 10) = V m c main_v32 from rfl) _)

/-- Window 11's one block is its whole array, whatever the array holds. -/
theorem whole11_of (A : S1x1.Idx → EReal) (t : Fin cfg0.N) (u : Fin 1) (v : Fin 1) :
    ((cfg0.win 11).blk t).view.read (Elt Ideal) A (ix2 u v) = A (ix2 u v) := by
  show A (((cfg0.win 11).blk t).view.emb (ix2 u v)) = A (ix2 u v)
  obtain ⟨e0a, e0b, e1a, e1b, e2a, e2b, e3a, e3b, e12a, e12b, e4a, e4b, e5a, e5b, e6a, e6b, e7a, e7b, e8a, e8b, e9a, e9b, e10a, e10b, e11a, e11b⟩ := idx_facts t
  refine congrArg A (funext fun a => Fin.ext ?_)
  match a with
  | ⟨0, _⟩ => show win0_11.index t (0 : Fin 2) * 1 + 1 * u.val = u.val; omega
  | ⟨1, _⟩ => show win0_11.index t (1 : Fin 2) * 1 + 1 * v.val = v.val; omega

/-- The same of the array the region finds behind window 11. -/
theorem whole11 (c : Dev nD) (t : Fin cfg0.N) (u : Fin 1) (v : Fin 1) :
    iblk m c 11 t (ix2 u v) = V m c main_v35 (ix2 u v) := by
  unfold iblk
  exact (whole11_of (V m c (Pipeline.arrRef spec0 11)) t u v).trans
    (congrFun (show V m c (Pipeline.arrRef spec0 11) = V m c main_v35 from rfl) _)

/-- Row `p` of the result's block at point `t` is row `2000 t + p` of the result array, whatever it holds; and what the
    window cuts out of a full block for writing back is the block itself. -/
theorem writeBack_of (P : Vec Ideal S2000x1 .f32) (G : S50000x1.Idx → EReal) (t : Fin cfg0.N)
    (h : ∀ (p : Fin 2000) (q : Fin 1) (R : Fin 50000), R.val = t.val * 2000 + p.val → P (ix2 p q) = G (ix2 R q)) :
    (cfg0.win 12).cut (grid0.coords t) P = ((cfg0.win 12).blk t).view.read (Elt Ideal) G := by
  funext y
  obtain ⟨p, q, rfl⟩ : ∃ (p : Fin 2000) (q : Fin 1), y = ix2 p q := ⟨y 0, y 1, eq_ix2 y⟩
  have ht : t.val < 25 := lt_of_lt_of_eq t.isLt N_0
  have hp : p.val < 2000 := p.isLt
  have hq : q.val < 1 := q.isLt
  obtain ⟨e0a, e0b, e1a, e1b, e2a, e2b, e3a, e3b, e12a, e12b, e4a, e4b, e5a, e5b, e6a, e6b, e7a, e7b, e8a, e8b, e9a, e9b, e10a, e10b, e11a, e11b⟩ := idx_facts t
  show P (ix2 p q) = G (((cfg0.win 12).blk t).view.emb (ix2 p q))
  have he : ((cfg0.win 12).blk t).view.emb (ix2 p q) = ix2 (⟨t.val * 2000 + p.val, by omega⟩ : Fin 50000) q :=
    funext fun a => Fin.ext (by
      match a with
      | ⟨0, _⟩ => show win0_12.index t (0 : Fin 2) * 2000 + 1 * p.val = t.val * 2000 + p.val; omega
      | ⟨1, _⟩ => show win0_12.index t (1 : Fin 2) * 1 + 1 * q.val = q.val; omega)
  rw [he]
  exact h p q ⟨t.val * 2000 + p.val, by omega⟩ rfl

end Cert.KernelIdeal.ArrayValue

end
-- ==== Proof.KernelArray.lean ====
/-
  From the blocks the kernel writes back to the whole result array.

  At grid point `t` the kernel is handed rows `2000 t … 2000 t + 1999` of the four node arrays (the two neighbour
  sums and the two feature arrays) and the whole of every weight and bias array — the weights transposed and the
  biases as one row, as @main prepared them — and writes back rows `2000 t … 2000 t + 1999` of the [50000,1] result.
  Row `p` of what it writes back is `node` of the block's rows (the body's row lemma), hence `node` of row `2000 t + p`
  of the arrays and of the weights as the program was given them: block `t` of the specification's column `nodes`.
  The 25 blocks tile the 50000 rows (row `r` lies in block `r / 2000`), so the result array ends holding `nodes`.
-/
import proofs.«136945_j32865089749543_1_alg».proof.Proof.Gen.KernelIdeal.Value
import proofs.«136945_j32865089749543_1_alg».proof.Proof.HeadsSpec
import proofs.«136945_j32865089749543_1_alg».proof.Proof.KernelRow
import proofs.«136945_j32865089749543_1_alg».proof.Proof.KernelInputs
import proofs.«136945_j32865089749543_1_alg».proof.Proof.KernelBlocks
import Idealize.ShloMosaic.Lib.Pipeline.Value
import Idealize.ShloMosaic.Lib.ValueIdx
import Idealize.ShloMosaic.Lib.ValueLayout
import Idealize.ShloMosaic.PureOps.Ideal

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Cert.GraphHeads
open Idealize.ShloMosaic.Pipeline (Dat)

variable (m : (ℓ : Loc nD τ sig) → Buf (Elt Ideal) ℓ) (ρ : Dev nD → PrngReg)

/-- What the result array ends holding: the specification's column, of the neighbour sums @main prepared and of the
    arguments. -/
def result (c : Dev nD) : S50000x1.Idx → EReal :=
  nodes (neighbourSum (m ((c : Thread nD τ).loc main_arg0)) (m ((c : Thread nD τ).loc main_arg2))) (m ((c : Thread nD τ).loc main_arg0))
    (neighbourSum (m ((c : Thread nD τ).loc main_arg1)) (m ((c : Thread nD τ).loc main_arg3))) (m ((c : Thread nD τ).loc main_arg1))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11))

/-- Row `p` of what point `t` stores is node `2000 t + p`'s output. -/
theorem stored_row (c : Dev nD) (t : Fin cfg0.N) (p : Fin 2000) (q : Fin 1) (R : Fin 50000) (hR : R.val = t.val * 2000 + p.val) :
    k0_pay1 (F := Ideal) (k0_pay2 (iblk m c 0 t) (iblk m c 1 t) (iblk m c 4 t) (iblk m c 5 t) (iblk m c 6 t))
        (k0_pay3 (iblk m c 2 t) (iblk m c 3 t) (iblk m c 7 t) (iblk m c 8 t)) (iblk m c 9 t) (iblk m c 10 t) (iblk m c 11 t) (ix2 p q)
      = result m c (ix2 R q) := by
  refine (RowValue.body_row (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) p q).trans ?_
  unfold result
  rw [nodes_apply]
  unfold nodeAt
  have h0 : (fun k => iblk m c 0 t (ix2 p k)) = fun k => neighbourSum (m ((c : Thread nD τ).loc main_arg0)) (m ((c : Thread nD τ).loc main_arg2)) (ix2 R k) :=
    funext fun k => (rows0 m c t p k R hR).trans (congrFun (V_main_v17 m c) _)
  have h1 : (fun k => iblk m c 1 t (ix2 p k)) = fun k => (m ((c : Thread nD τ).loc main_arg0)) (ix2 R k) :=
    funext fun k => (rows1 m c t p k R hR).trans (congrFun (V_main_arg0 m c) _)
  have h2 : (fun k => iblk m c 2 t (ix2 p k)) = fun k => neighbourSum (m ((c : Thread nD τ).loc main_arg1)) (m ((c : Thread nD τ).loc main_arg3)) (ix2 R k) :=
    funext fun k => (rows2 m c t p k R hR).trans (congrFun (V_main_v27 m c) _)
  have h3 : (fun k => iblk m c 3 t (ix2 p k)) = fun k => (m ((c : Thread nD τ).loc main_arg1)) (ix2 R k) :=
    funext fun k => (rows3 m c t p k R hR).trans (congrFun (V_main_arg1 m c) _)
  have h4 : (fun (j : Fin 64) (k : Fin 128) => iblk m c 4 t (ix2 k j)) = fun j k => (m ((c : Thread nD τ).loc main_arg4)) (ix2 j k) :=
    funext fun j => funext fun k => ((whole4 m c t k j).trans (congrFun (V_main_v28 m c) _)).trans (transpose_ix2_apply _ _ k j)
  have h5 : (fun (j : Fin 64) (k : Fin 128) => iblk m c 5 t (ix2 k j)) = fun j k => (m ((c : Thread nD τ).loc main_arg6)) (ix2 j k) :=
    funext fun j => funext fun k => ((whole5 m c t k j).trans (congrFun (V_main_v29 m c) _)).trans (transpose_ix2_apply _ _ k j)
  have h6 : (fun (j : Fin 64) => iblk m c 6 t (ix2 (0 : Fin 1) j)) = fun j => (m ((c : Thread nD τ).loc main_arg5)) (ix1 j) :=
    funext fun j => ((whole6 m c t 0 j).trans (congrFun (V_main_v33 m c) _)).trans (shapeCast_a_1a_apply _ _ 0 j)
  have h7 : (fun (j : Fin 64) (k : Fin 128) => iblk m c 7 t (ix2 k j)) = fun j k => (m ((c : Thread nD τ).loc main_arg7)) (ix2 j k) :=
    funext fun j => funext fun k => ((whole7 m c t k j).trans (congrFun (V_main_v30 m c) _)).trans (transpose_ix2_apply _ _ k j)
  have h8 : (fun (j : Fin 64) (k : Fin 128) => iblk m c 8 t (ix2 k j)) = fun j k => (m ((c : Thread nD τ).loc main_arg9)) (ix2 j k) :=
    funext fun j => funext fun k => ((whole8 m c t k j).trans (congrFun (V_main_v31 m c) _)).trans (transpose_ix2_apply _ _ k j)
  have h9 : (fun (j : Fin 64) => iblk m c 9 t (ix2 (0 : Fin 1) j)) = fun j => (m ((c : Thread nD τ).loc main_arg8)) (ix1 j) :=
    funext fun j => ((whole9 m c t 0 j).trans (congrFun (V_main_v34 m c) _)).trans (shapeCast_a_1a_apply _ _ 0 j)
  have h10 : (fun (k : Fin 128) => iblk m c 10 t (ix2 k (0 : Fin 1))) = fun k => (m ((c : Thread nD τ).loc main_arg10)) (ix2 (0 : Fin 1) k) :=
    funext fun k => ((whole10 m c t k 0).trans (congrFun (V_main_v32 m c) _)).trans (transpose_ix2_apply _ _ k 0)
  have h11 : iblk m c 11 t (ix2 (0 : Fin 1) (0 : Fin 1)) = (m ((c : Thread nD τ).loc main_arg11)) (ix1 (0 : Fin 1)) :=
    ((whole11 m c t 0 0).trans (congrFun (V_main_v35 m c) _)).trans (shapeCast_a_1a_apply _ _ 0 0)
  rw [h0, h1, h2, h3, h4, h5, h6, h7, h8, h9, h10, h11]

/-- WHAT POINT `t` WRITES BACK is block `t` of `result`. -/
theorem flushed_eq (c : Dev nD) (t : Fin cfg0.N) :
    (dats m 0 c).flushed 12 t = ((cfg0.win 12).blk t).view.read (Elt Ideal) (result m c) := by
  rw [Value.flushed12]
  unfold out0_12
  rw [View.canon_unit_zero hz]
  simp only [View.ld_unit_zero (S := S2000x128) hz, View.ld_unit_zero (S := S128x64) hz, View.ld_unit_zero (S := S1x64) hz,
    View.ld_unit_zero (S := S128x1) hz, View.ld_unit_zero (S := S1x1) hz]
  exact writeBack_of _ (result m c) t (fun p q R hR => stored_row m c t p q R hR)

/-- An index of the result is in point `t`'s block iff each coordinate is in the block's range on its axis. -/
theorem mem_blk (t : Fin cfg0.N) (i : S50000x1.Idx) :
    i ∈ ((cfg0.win 12).blk t).view.set ↔ ∀ a : Fin 2, win0_12.index t a * S2000x1.size a ≤ (i a).val ∧ (i a).val < win0_12.index t a * S2000x1.size a + S2000x1.size a := by
  show i ∈ ((View.whole main_v36).slice (win0_12.rect t)).set ↔ _
  rw [View.set_slice_whole, Rect.mem_set_unit]
  exact Iff.rfl

/-- Every row of the result is written by some point: row `r` by point `r / 2000`. -/
theorem covered (i : S50000x1.Idx) : ∃ t : Fin cfg0.N, (cfg0.win 12).flush t = true ∧ i ∈ ((cfg0.win 12).blk t).view.set := by
  have hi0 : (i 0).val < 50000 := (i 0).isLt
  have hi1 : (i 1).val < 1 := (i 1).isLt
  have hN : cfg0.N = 25 := N_0
  let t : Fin cfg0.N := ⟨(i 0).val / 2000, by rw [hN]; omega⟩
  have htv : t.val = (i 0).val / 2000 := rfl
  obtain ⟨e0a, e0b, e1a, e1b, e2a, e2b, e3a, e3b, e12a, e12b, e4a, e4b, e5a, e5b, e6a, e6b, e7a, e7b, e8a, e8b, e9a, e9b, e10a, e10b, e11a, e11b⟩ := idx_facts t
  refine ⟨t, flush0_12 t, ?_⟩
  rw [mem_blk]
  intro a
  match a with
  | ⟨0, _⟩ => show win0_12.index t (0 : Fin 2) * 2000 ≤ (i 0).val ∧ (i 0).val < win0_12.index t (0 : Fin 2) * 2000 + 2000; omega
  | ⟨1, _⟩ => show win0_12.index t (1 : Fin 2) * 1 ≤ (i 1).val ∧ (i 1).val < win0_12.index t (1 : Fin 2) * 1 + 1; omega

/-- THE RESULT ARRAY after the run is `result`. -/
theorem final (c : Dev nD) : (dats m 0 c).arrAt 12 cfg0.N = result m c :=
  (dats m 0 c).arrAt_eq_of_cover 12 (result m c) (fun t _ => flushed_eq m c t) covered

/-- The kernel's run: every weakly fair execution ends with the result array at `result` and the arguments unchanged. -/
theorem run : θ_run defs (onTc (τ := τ) (main (F := Ideal))) ⟨m, fun _ => 0, ρ⟩ fun r => ∀ c : Dev nD,
      r.2.mem ((c : Thread nD τ).loc main_v36) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Value.run_blocks m ρ)

end Cert.KernelIdeal.ArrayValue

end
-- ==== Proof.RefNodes.lean ====
/-
  The reference's result is the specification's column `nodes`.

  The reference computes, for all 50000 nodes at once, each relation's [50000,64] hidden features
  `max ((agg · Wrelᵀ + b) + x · Wrootᵀ, 0)` — the bias broadcast over the rows, the weights transposed on the way
  into the product —, joins the two along the feature axis, multiplies by the last layer's transposed weights and
  adds its bias. Read at node `r` this is `node` of row `r` of the neighbour sums and of the features and of the
  weights as given. The neighbour sums (a gather of the source rows added into the destination rows) are kept as
  the reference's own stage, unopened: the other program computes the very same stage.
-/
import proofs.«136945_j32865089749543_1_alg».proof.Proof.Gen.ReferenceIdeal.Read
import proofs.«136945_j32865089749543_1_alg».proof.Proof.HeadsSpec
import Idealize.ShloMosaic.Lib.ValueIdx
import Idealize.ShloMosaic.Lib.Pipeline.Value
import Idealize.ShloMosaic.PureOps.Ideal.Laws

noncomputable section

open scoped BigOperators

namespace Cert.ReferenceIdeal.NodesValue

open Cert.ReferenceIdeal Cert.ReferenceIdeal.Gen Cert.ReferenceIdeal.Read Idealize.ShloMosaic Idealize.ShloMosaic.ValueIdx Cert.GraphHeads

/-! ## Two [50000,64] arrays joined along the feature axis -/

/-- Position `k < 64` reads the first array at `k`, position `k ≥ 64` the second at `k - 64`. -/
theorem sideBySide_apply (u v : FVec Ideal S50000x64 .f32) (r : Fin 50000) (k : Fin 128) :
    concatenate S50000x128 1 [⟨S50000x64, u⟩, ⟨S50000x64, v⟩] concatenates_S50000x64_S50000x64_S50000x128_d1 (ix2 r k)
      = if h : k.val < 64 then u (ix2 r ⟨k.val, h⟩) else v (ix2 r ⟨k.val - 64, by have := k.isLt; omega⟩) := by
  split
  · rename_i h
    exact concatenate_pair_apply_left (1 : Fin 2) u v concatenates_S50000x64_S50000x64_S50000x128_d1 (ix2 r k) rfl
      (ix2 r ⟨k.val, h⟩) (fun b => match b with | ⟨0, _⟩ => rfl | ⟨1, _⟩ => rfl)
  · rename_i h
    exact concatenate_pair_apply_right (1 : Fin 2) u v concatenates_S50000x64_S50000x64_S50000x128_d1 (ix2 r k) rfl rfl
      (ix2 r ⟨k.val - 64, by have := k.isLt; omega⟩)
      (fun b hb => match b with | ⟨0, _⟩ => rfl | ⟨1, _⟩ => absurd rfl hb)
      (by show (k.val - 64) + 64 = k.val; omega)

/-! ## One relation's hidden features -/

/-- Relation 0's hidden feature `j` of node `r` in the reference: the reference's stages read at `(r, j)`, outermost first. -/
theorem head0_apply (x0 : (⟨S50000x128, .f32⟩ : BufTy).Contents (Elt Ideal)) (x2 : (⟨S2x600000, .i32⟩ : BufTy).Contents (Elt Ideal))
    (x4 : (⟨S64x128, .f32⟩ : BufTy).Contents (Elt Ideal)) (x5 : (⟨S64, .f32⟩ : BufTy).Contents (Elt Ideal)) (x6 : (⟨S64x128, .f32⟩ : BufTy).Contents (Elt Ideal))
    (r : Fin 50000) (j : Fin 64) :
    val_main_v22 (F := Ideal) x0 x2 x4 x5 x6 (ix2 r j)
      = max (head (fun k => val_main_v13 (F := Ideal) x0 x2 (ix2 r k)) (fun k => x0 (ix2 r k))
          (fun j k => x4 (ix2 j k)) (fun j k => x6 (ix2 j k)) (fun j => x5 (ix1 j)) j) floor0 := by
  rw [val_main_v22_apply, val_main_v21_apply, val_main_v18_apply, val_main_v15_apply, val_main_v20_apply, val_main_v17_apply, val_main_v16_apply,
    val_main_call0_v0_apply, val_main_call0_cst_apply]
  have ea : ∀ k : Fin 128, lidx_main_v15 (ix2 r j) k = ix2 r k := fun k => funext fun a => Fin.ext (by
    match a with | ⟨0, _⟩ => rfl | ⟨1, _⟩ => rfl)
  have ew : ∀ k : Fin 128, idx_main_v14 (ridx_main_v15 (ix2 r j) k) = ix2 j k := fun k => funext fun a => Fin.ext (by
    match a with | ⟨0, _⟩ => rfl | ⟨1, _⟩ => rfl)
  have ex : ∀ k : Fin 128, lidx_main_v20 (ix2 r j) k = ix2 r k := fun k => funext fun a => Fin.ext (by
    match a with | ⟨0, _⟩ => rfl | ⟨1, _⟩ => rfl)
  have eo : ∀ k : Fin 128, idx_main_v19 (ridx_main_v20 (ix2 r j) k) = ix2 j k := fun k => funext fun a => Fin.ext (by
    match a with | ⟨0, _⟩ => rfl | ⟨1, _⟩ => rfl)
  have eb : idx_main_v16 (idx_main_v17 (ix2 r j)) = ix1 j := funext fun a => Fin.ext (by
    match a with | ⟨0, _⟩ => rfl)
  simp only [val_main_v14_apply, val_main_v19_apply, ea, ew, ex, eo, eb]
  unfold head
  rfl

/-- Relation 1's hidden feature `j` of node `r` in the reference: the reference's stages read at `(r, j)`, outermost first. -/
theorem head1_apply (x1 : (⟨S50000x128, .f32⟩ : BufTy).Contents (Elt Ideal)) (x3 : (⟨S2x600000, .i32⟩ : BufTy).Contents (Elt Ideal))
    (x7 : (⟨S64x128, .f32⟩ : BufTy).Contents (Elt Ideal)) (x8 : (⟨S64, .f32⟩ : BufTy).Contents (Elt Ideal)) (x9 : (⟨S64x128, .f32⟩ : BufTy).Contents (Elt Ideal))
    (r : Fin 50000) (j : Fin 64) :
    val_main_v45 (F := Ideal) x1 x3 x7 x8 x9 (ix2 r j)
      = max (head (fun k => val_main_v36 (F := Ideal) x1 x3 (ix2 r k)) (fun k => x1 (ix2 r k))
          (fun j k => x7 (ix2 j k)) (fun j k => x9 (ix2 j k)) (fun j => x8 (ix1 j)) j) floor0 := by
  rw [val_main_v45_apply, val_main_v44_apply, val_main_v41_apply, val_main_v38_apply, val_main_v43_apply, val_main_v40_apply, val_main_v39_apply,
    val_main_call1_v0_apply, val_main_call1_cst_apply]
  have ea : ∀ k : Fin 128, lidx_main_v38 (ix2 r j) k = ix2 r k := fun k => funext fun a => Fin.ext (by
    match a with | ⟨0, _⟩ => rfl | ⟨1, _⟩ => rfl)
  have ew : ∀ k : Fin 128, idx_main_v37 (ridx_main_v38 (ix2 r j) k) = ix2 j k := fun k => funext fun a => Fin.ext (by
    match a with | ⟨0, _⟩ => rfl | ⟨1, _⟩ => rfl)
  have ex : ∀ k : Fin 128, lidx_main_v43 (ix2 r j) k = ix2 r k := fun k => funext fun a => Fin.ext (by
    match a with | ⟨0, _⟩ => rfl | ⟨1, _⟩ => rfl)
  have eo : ∀ k : Fin 128, idx_main_v42 (ridx_main_v43 (ix2 r j) k) = ix2 j k := fun k => funext fun a => Fin.ext (by
    match a with | ⟨0, _⟩ => rfl | ⟨1, _⟩ => rfl)
  have eb : idx_main_v39 (idx_main_v40 (ix2 r j)) = ix1 j := funext fun a => Fin.ext (by
    match a with | ⟨0, _⟩ => rfl)
  simp only [val_main_v37_apply, val_main_v42_apply, ea, ew, ex, eo, eb]
  unfold head
  rfl

/-! ## The result -/

/-- The reference's last stage, as a function of its twelve arguments, is `nodes` of its two neighbour-sum stages
    and of the arguments. -/
theorem result_eq_nodes (x0 x1 : (⟨S50000x128, .f32⟩ : BufTy).Contents (Elt Ideal)) (x2 x3 : (⟨S2x600000, .i32⟩ : BufTy).Contents (Elt Ideal))
    (x4 : (⟨S64x128, .f32⟩ : BufTy).Contents (Elt Ideal)) (x5 : (⟨S64, .f32⟩ : BufTy).Contents (Elt Ideal)) (x6 x7 : (⟨S64x128, .f32⟩ : BufTy).Contents (Elt Ideal))
    (x8 : (⟨S64, .f32⟩ : BufTy).Contents (Elt Ideal)) (x9 : (⟨S64x128, .f32⟩ : BufTy).Contents (Elt Ideal)) (x10 : (⟨S1x128, .f32⟩ : BufTy).Contents (Elt Ideal)) (x11 : (⟨S1, .f32⟩ : BufTy).Contents (Elt Ideal)) :
    val_main_v51 (F := Ideal) x0 x1 x2 x3 x4 x5 x6 x7 x8 x9 x10 x11
      = nodes (val_main_v13 (F := Ideal) x0 x2) x0 (val_main_v36 (F := Ideal) x1 x3) x1 x4 x5 x6 x7 x8 x9 x10 x11 := by
  funext i
  obtain ⟨r, q, rfl⟩ : ∃ (r : Fin 50000) (q : Fin 1), i = ix2 r q := ⟨i 0, i 1, eq_ix2 i⟩
  obtain rfl : q = 0 := Subsingleton.elim q 0
  rw [nodes_apply, val_main_v51_apply, val_main_v48_apply, val_main_v50_apply, val_main_v49_apply, Ideal.addf_def]
  unfold nodeAt node
  have eb : idx_main_v49 (idx_main_v50 (ix2 r (0 : Fin 1))) = ix1 (0 : Fin 1) := funext fun a => Fin.ext (by
    match a with | ⟨0, _⟩ => rfl)
  rw [eb]
  refine congrArg (· + x11 (ix1 (0 : Fin 1))) (Finset.sum_congr rfl fun k _ => ?_)
  have el : lidx_main_v48 (ix2 r (0 : Fin 1)) k = ix2 r k := funext fun a => Fin.ext (by
    match a with | ⟨0, _⟩ => rfl | ⟨1, _⟩ => rfl)
  have er : idx_main_v47 (ridx_main_v48 (ix2 r (0 : Fin 1)) k) = ix2 (0 : Fin 1) k := funext fun a => Fin.ext (by
    match a with | ⟨0, _⟩ => rfl | ⟨1, _⟩ => rfl)
  rw [val_main_v47_apply, el, er]
  refine congrArg (· * x10 (ix2 (0 : Fin 1) k)) ?_
  unfold val_main_v46
  refine (sideBySide_apply _ _ r k).trans ?_
  unfold hiddenFeature
  by_cases h : k.val < 64
  · rw [dif_pos h, dif_pos h]
    exact head0_apply x0 x2 x4 x5 x6 r ⟨k.val, h⟩
  · rw [dif_neg h, dif_neg h]
    exact head1_apply x1 x3 x7 x8 x9 r ⟨k.val - 64, by have := k.isLt; omega⟩

end Cert.ReferenceIdeal.NodesValue

end
-- ==== Proof.lean ====
/-
  Two programs for the dense half of a two-relation graph convolution over 50000 nodes compute the same column of
  50000 numbers, as extended reals.

  Both programs first form, per relation, the neighbour sums of the node features along the edges — the very same
  chain of operations in both, so it is carried through as one unopened term. What differs is the rest. One program
  hands the neighbour sums, the features, the TRANSPOSED weights and the biases as rows to a kernel that works on
  2000 nodes at a time and, per relation, adds the bias AFTER the two matrix products; the other computes all 50000
  nodes at once and adds the bias BETWEEN the two products. For each node both are
      Σ_k max (head_k, 0) · Wfc[k] + bfc,     head = agg · Wrel[j] + b[j] + x · Wroot[j]
  (`GraphHeads.node`), the two groupings of the three-term sum being equal because addition of extended reals is
  commutative and associative even at the infinities — so the inputs' finiteness is never used. The kernel's side is
  `KernelIdeal.ArrayValue.run` (its 25 blocks of 2000 rows tile the result), the other side
  `ReferenceIdeal.NodesValue.result_eq_nodes` over its generated run; the narrowing of the kernel's matrix operands
  is the identity on extended reals, and the idealization rewrote nothing, so `preserves` is trivial.
-/
import proofs.«136945_j32865089749543_1_alg».proof.Defs
import proofs.«136945_j32865089749543_1_alg».proof.Proof.Gen.Kernel
import proofs.«136945_j32865089749543_1_alg».proof.Proof.Gen.Kernel.Skeleton
import proofs.«136945_j32865089749543_1_alg».proof.Proof.Gen.Kernel.Launch
import proofs.«136945_j32865089749543_1_alg».proof.Proof.Gen.Kernel.Points
import proofs.«136945_j32865089749543_1_alg».proof.Proof.Gen.Kernel.Frame
import proofs.«136945_j32865089749543_1_alg».proof.Proof.Gen.KernelIdeal
import proofs.«136945_j32865089749543_1_alg».proof.Proof.Gen.KernelIdeal.Skeleton
import proofs.«136945_j32865089749543_1_alg».proof.Proof.Gen.KernelIdeal.Launch
import proofs.«136945_j32865089749543_1_alg».proof.Proof.Gen.KernelIdeal.Points
import proofs.«136945_j32865089749543_1_alg».proof.Proof.Gen.KernelIdeal.Frame
import proofs.«136945_j32865089749543_1_alg».proof.Proof.Gen.ReferenceIdeal
import proofs.«136945_j32865089749543_1_alg».proof.Proof.Gen.Pre_finite_inputs
import proofs.«136945_j32865089749543_1_alg».proof.Proof.Gen.KernelIdeal.Value
import proofs.«136945_j32865089749543_1_alg».proof.Proof.Gen.ReferenceIdeal.Run
import proofs.«136945_j32865089749543_1_alg».proof.Proof.Gen.ReferenceIdeal.Read
import proofs.«136945_j32865089749543_1_alg».proof.Proof.HeadsSpec
import proofs.«136945_j32865089749543_1_alg».proof.Proof.KernelArray
import proofs.«136945_j32865089749543_1_alg».proof.Proof.RefNodes
import Idealize.ShloMosaic.Adequacy
import Idealize.ShloMosaic.Init

noncomputable section

namespace Cert.Proof

open Idealize.ShloMosaic Idealize.SL.Sem

/-! ## The two programs' neighbour sums are one term -/

/-- Relation 0's neighbour sums: the reference's stages, unfolded one by one, are the kernel program's chain. -/
theorem neighbourSum_eq0 (x : (⟨Cert.KernelIdeal.S50000x128, .f32⟩ : BufTy).Contents (Elt Ideal)) (e : (⟨Cert.KernelIdeal.S2x600000, .i32⟩ : BufTy).Contents (Elt Ideal)) :
    Cert.KernelIdeal.ArrayValue.neighbourSum x e = Cert.ReferenceIdeal.Read.val_main_v13 (F := Ideal) x e := by
  unfold Cert.KernelIdeal.ArrayValue.neighbourSum Cert.ReferenceIdeal.Read.val_main_v13 Cert.ReferenceIdeal.Read.val_main_v12 Cert.ReferenceIdeal.Read.val_main_v11 Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0 Cert.ReferenceIdeal.Read.val_main_c Cert.ReferenceIdeal.Read.val_main_c_0 Cert.ReferenceIdeal.Read.val_main_cst
  rfl

/-- Relation 1's likewise. -/
theorem neighbourSum_eq1 (x : (⟨Cert.KernelIdeal.S50000x128, .f32⟩ : BufTy).Contents (Elt Ideal)) (e : (⟨Cert.KernelIdeal.S2x600000, .i32⟩ : BufTy).Contents (Elt Ideal)) :
    Cert.KernelIdeal.ArrayValue.neighbourSum x e = Cert.ReferenceIdeal.Read.val_main_v36 (F := Ideal) x e := by
  unfold Cert.KernelIdeal.ArrayValue.neighbourSum Cert.ReferenceIdeal.Read.val_main_v36 Cert.ReferenceIdeal.Read.val_main_v35 Cert.ReferenceIdeal.Read.val_main_v34 Cert.ReferenceIdeal.Read.val_main_v33 Cert.ReferenceIdeal.Read.val_main_v32 Cert.ReferenceIdeal.Read.val_main_v31 Cert.ReferenceIdeal.Read.val_main_v30 Cert.ReferenceIdeal.Read.val_main_v29 Cert.ReferenceIdeal.Read.val_main_v28 Cert.ReferenceIdeal.Read.val_main_v27 Cert.ReferenceIdeal.Read.val_main_v26 Cert.ReferenceIdeal.Read.val_main_v25 Cert.ReferenceIdeal.Read.val_main_v24 Cert.ReferenceIdeal.Read.val_main_v23 Cert.ReferenceIdeal.Read.val_main_c_1 Cert.ReferenceIdeal.Read.val_main_c_2 Cert.ReferenceIdeal.Read.val_main_cst_3
  rfl

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the twelve arguments both programs end with the result at the specification's column
    of the (common) neighbour sums and arguments. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  unfold Cert.KernelIdeal.ArrayValue.result
  rw [Cert.ReferenceIdeal.Read.val_main_v51_eq, Cert.ReferenceIdeal.NodesValue.result_eq_nodes, a0, a1, a2, a3, a4, a5, a6, a7, a8, a9, a10, a11,
    ← neighbourSum_eq0, ← neighbourSum_eq1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
